-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S2x100000 : Shape := ⟨2, ![2, 100000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S512 .f32) (main_arg7 : FVec F S512x256 .f32) (main_arg8 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S20000x512 .f32) (main_arg1 : IVec S2x320000 32) (main_arg2 : IVec S2x100000 32) (main_arg3 : FVec F S512x512 .f32) (main_arg4 : FVec F S512 .f32) (main_arg5 : FVec F S512x512 .f32) (main_arg6 : FVec F S512 .f32) (main_arg7 : FVec F S512x256 .f32) (main_arg8 : FVec F S256 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_v13 main_v16
-- ==== Kernel.lean ====
abbrev S20000x512 : Shape := ⟨2, ![20000, 512]⟩
abbrev S2x320000 : Shape := ⟨2, ![2, 320000]⟩
abbrev S2x100000 : Shape := ⟨2, ![2, 100000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S2000x512 : Shape := ⟨2, ![2000, 512]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩
abbrev S20000x256 : Shape := ⟨2, ![20000, 256]⟩
abbrev S2000x256 : Shape := ⟨2, ![2000, 256]⟩
abbrev S320000x256 : Shape := ⟨2, ![320000, 256]⟩
abbrev S1x256 : Shape := ⟨2, ![1, 256]⟩
abbrev S1x100000 : Shape := ⟨2, ![1, 100000]⟩
abbrev S100000 : Shape := ⟨1, ![100000]⟩
abbrev S100000x1 : Shape := ⟨2, ![100000, 1]⟩
abbrev S100000x256 : Shape := ⟨2, ![100000, 256]⟩

abbrev nBuf : Space → Nat
  | .hbm => 101
  | .vmem => 15
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S2x100000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S512x512, .bf16⟩
  | .hbm, ⟨14, _⟩ => ⟨S512x512, .bf16⟩
  | .hbm, ⟨15, _⟩ => ⟨S512x256, .bf16⟩
  | .hbm, ⟨16, _⟩ => ⟨S20000x512, .bf16⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x512, .bf16⟩
  | .hbm, ⟨26, _⟩ => ⟨S320000x512, .f32⟩
  | .hbm, ⟨27, _⟩ => ⟨S_, .f32⟩
  | .hbm, ⟨28, _⟩ => ⟨S20000x512, .f32⟩
  | .hbm, ⟨29, _⟩ => ⟨S320000x1, .i32⟩
  | .hbm, ⟨30, _⟩ => ⟨S20000x512, .f32⟩
  | .hbm, ⟨31, _⟩ => ⟨S1x512, .f32⟩
  | .hbm, ⟨32, _⟩ => ⟨S20000x512, .f32⟩
  | .hbm, ⟨33, _⟩ => ⟨S20000x512, .f32⟩
  | .hbm, ⟨34, _⟩ => ⟨S_, .f32⟩
  | .hbm, ⟨35, _⟩ => ⟨S20000x512, .f32⟩
  | .hbm, ⟨36, _⟩ => ⟨S20000x512, .f32⟩
  | .hbm, ⟨37, _⟩ => ⟨S20000x512, .bf16⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S320000x1, .i32⟩
  | .hbm, ⟨46, _⟩ => ⟨S320000x512, .bf16⟩
  | .hbm, ⟨47, _⟩ => ⟨S320000x512, .f32⟩
  | .hbm, ⟨48, _⟩ => ⟨S_, .f32⟩
  | .hbm, ⟨49, _⟩ => ⟨S20000x512, .f32⟩
  | .hbm, ⟨50, _⟩ => ⟨S320000x1, .i32⟩
  | .hbm, ⟨51, _⟩ => ⟨S20000x512, .f32⟩
  | .hbm, ⟨52, _⟩ => ⟨S1x512, .f32⟩
  | .hbm, ⟨53, _⟩ => ⟨S20000x512, .f32⟩
  | .hbm, ⟨54, _⟩ => ⟨S20000x512, .f32⟩
  | .hbm, ⟨55, _⟩ => ⟨S_, .f32⟩
  | .hbm, ⟨56, _⟩ => ⟨S20000x512, .f32⟩
  | .hbm, ⟨57, _⟩ => ⟨S20000x512, .f32⟩
  | .hbm, ⟨58, _⟩ => ⟨S20000x256, .bf16⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x256, .bf16⟩
  | .hbm, ⟨68, _⟩ => ⟨S320000x256, .f32⟩
  | .hbm, ⟨69, _⟩ => ⟨S_, .f32⟩
  | .hbm, ⟨70, _⟩ => ⟨S20000x256, .f32⟩
  | .hbm, ⟨71, _⟩ => ⟨S320000x1, .i32⟩
  | .hbm, ⟨72, _⟩ => ⟨S20000x256, .f32⟩
  | .hbm, ⟨73, _⟩ => ⟨S1x256, .f32⟩
  | .hbm, ⟨74, _⟩ => ⟨S20000x256, .f32⟩
  | .hbm, ⟨75, _⟩ => ⟨S20000x256, .f32⟩
  | .hbm, ⟨76, _⟩ => ⟨S1x100000, .i32⟩
  | .hbm, ⟨77, _⟩ => ⟨S100000, .i32⟩
  | .hbm, ⟨78, _⟩ => ⟨S_, .i32⟩
  | .hbm, ⟨79, _⟩ => ⟨S100000, .i32⟩
  | .hbm, ⟨80, _⟩ => ⟨S100000, .i1⟩
  | .hbm, ⟨81, _⟩ => ⟨S_, .i32⟩
  | .hbm, ⟨82, _⟩ => ⟨S100000, .i32⟩
  | .hbm, ⟨83, _⟩ => ⟨S100000, .i32⟩
  | .hbm, ⟨84, _⟩ => ⟨S100000, .i32⟩
  | .hbm, ⟨85, _⟩ => ⟨S100000x1, .i32⟩
  | .hbm, ⟨86, _⟩ => ⟨S100000x256, .f32⟩
  | .hbm, ⟨87, _⟩ => ⟨S1x100000, .i32⟩
  | .hbm, ⟨88, _⟩ => ⟨S100000, .i32⟩
  | .hbm, ⟨89, _⟩ => ⟨S_, .i32⟩
  | .hbm, ⟨90, _⟩ => ⟨S100000, .i32⟩
  | .hbm, ⟨91, _⟩ => ⟨S100000, .i1⟩
  | .hbm, ⟨92, _⟩ => ⟨S_, .i32⟩
  | .hbm, ⟨93, _⟩ => ⟨S100000, .i32⟩
  | .hbm, ⟨94, _⟩ => ⟨S100000, .i32⟩
  | .hbm, ⟨95, _⟩ => ⟨S100000, .i32⟩
  | .hbm, ⟨96, _⟩ => ⟨S100000x1, .i32⟩
  | .hbm, ⟨97, _⟩ => ⟨S100000x256, .f32⟩
  | .hbm, ⟨98, _⟩ => ⟨S100000x256, .f32⟩
  | .hbm, ⟨99, _⟩ => ⟨S_, .f32⟩
  | .hbm, ⟨100, _⟩ => ⟨S100000, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S2000x512, .bf16⟩
  | .local _ .vmem, ⟨4, _⟩ => ⟨S2000x512, .bf16⟩
  | .local _ .vmem, ⟨5, _⟩ => ⟨S2000x512, .f32⟩
  | .local _ .vmem, ⟨6, _⟩ => ⟨S2000x512, .f32⟩
  | .local _ .vmem, ⟨7, _⟩ => ⟨S512x512, .bf16⟩
  | .local _ .vmem, ⟨8, _⟩ => ⟨S2000x512, .bf16⟩
  | .local _ .vmem, ⟨9, _⟩ => ⟨S2000x512, .bf16⟩
  | .local _ .vmem, ⟨10, _⟩ => ⟨S2000x512, .f32⟩
  | .local _ .vmem, ⟨11, _⟩ => ⟨S2000x512, .f32⟩
  | .local _ .vmem, ⟨12, _⟩ => ⟨S512x256, .bf16⟩
  | .local _ .vmem, ⟨13, _⟩ => ⟨S2000x256, .bf16⟩
  | .local _ .vmem, ⟨14, _⟩ => ⟨S2000x256, .bf16⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_cst : Ref sig .tc := ⟨.hbm, 55, rfl⟩
abbrev main_call1_v0 : Ref sig .tc := ⟨.hbm, 56, rfl⟩
abbrev main_v38 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_7 : Ref sig .tc := ⟨.hbm, 78, rfl⟩
abbrev main_v56 : Ref sig .tc := ⟨.hbm, 79, rfl⟩
abbrev main_v57 : Ref sig .tc := ⟨.hbm, 80, rfl⟩
abbrev main_c_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_9 : Ref sig .tc := ⟨.hbm, 89, rfl⟩
abbrev main_v65 : Ref sig .tc := ⟨.hbm, 90, rfl⟩
abbrev main_v66 : Ref sig .tc := ⟨.hbm, 91, rfl⟩
abbrev main_c_10 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_11 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S2000x512_S2000x512_0_0 : (Rect.unit (s := S2000x512) ![0, 0] S2000x512.size inb_S2000x512_S2000x512_0_0).PackedRows (EltTy.packing .bf16)
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x256_S100000_d1 : S100000x256.ReducesTo [1] S100000
  h_S_ : 0 < S_.numel
  dot_S2000x512_S512x512_S2000x512_1_0_0_1_n_n_wf : DotDims.WF S2000x512 S512x512 S2000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S2000x512_S512x256_S2000x256_1_0_0_1_n_n_wf : DotDims.WF S2000x512 S512x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  gather_S20000x256_S100000x1_S100000x256_1_0_n_n_0_1_1256_wf : GatherDims.WF S20000x256 S100000x1 S100000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .bf16 = 32 ∨ (Rect.block (s := S20000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S20000x512.size a
  hwx1_2 : ∀ i : grid1.Coords, EltTy.bits .bf16 = 32 ∨ (Rect.block (s := S20000x512) S2000x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .bf16 = 32 ∨ (Rect.block (s := S512x256) S512x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .bf16 = 32 ∨ (Rect.block (s := S20000x256) S2000x256.size (cc2_transform_2 i) (hinb2_2 i)).WholeWords (EltTy.packing .bf16)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S20000x512 : Shape := ⟨2, ![20000, 512]⟩
abbrev S2x320000 : Shape := ⟨2, ![2, 320000]⟩
abbrev S2x100000 : Shape := ⟨2, ![2, 100000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩
abbrev S20000x256 : Shape := ⟨2, ![20000, 256]⟩
abbrev S320000x256 : Shape := ⟨2, ![320000, 256]⟩
abbrev S1x256 : Shape := ⟨2, ![1, 256]⟩
abbrev S1x100000 : Shape := ⟨2, ![1, 100000]⟩
abbrev S100000 : Shape := ⟨1, ![100000]⟩
abbrev S100000x1 : Shape := ⟨2, ![100000, 1]⟩
abbrev S100000x256 : Shape := ⟨2, ![100000, 256]⟩

abbrev nBuf : Space → Nat
  | .hbm => 95
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S2x100000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S20000x512, .f32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x512, .f32⟩
  | .hbm, ⟨23, _⟩ => ⟨S_, .f32⟩
  | .hbm, ⟨24, _⟩ => ⟨S20000x512, .f32⟩
  | .hbm, ⟨25, _⟩ => ⟨S320000x1, .i32⟩
  | .hbm, ⟨26, _⟩ => ⟨S20000x512, .f32⟩
  | .hbm, ⟨27, _⟩ => ⟨S1x512, .f32⟩
  | .hbm, ⟨28, _⟩ => ⟨S20000x512, .f32⟩
  | .hbm, ⟨29, _⟩ => ⟨S20000x512, .f32⟩
  | .hbm, ⟨30, _⟩ => ⟨S_, .f32⟩
  | .hbm, ⟨31, _⟩ => ⟨S20000x512, .f32⟩
  | .hbm, ⟨32, _⟩ => ⟨S20000x512, .f32⟩
  | .hbm, ⟨33, _⟩ => ⟨S20000x512, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x512, .f32⟩
  | .hbm, ⟨43, _⟩ => ⟨S_, .f32⟩
  | .hbm, ⟨44, _⟩ => ⟨S20000x512, .f32⟩
  | .hbm, ⟨45, _⟩ => ⟨S320000x1, .i32⟩
  | .hbm, ⟨46, _⟩ => ⟨S20000x512, .f32⟩
  | .hbm, ⟨47, _⟩ => ⟨S1x512, .f32⟩
  | .hbm, ⟨48, _⟩ => ⟨S20000x512, .f32⟩
  | .hbm, ⟨49, _⟩ => ⟨S20000x512, .f32⟩
  | .hbm, ⟨50, _⟩ => ⟨S_, .f32⟩
  | .hbm, ⟨51, _⟩ => ⟨S20000x512, .f32⟩
  | .hbm, ⟨52, _⟩ => ⟨S20000x512, .f32⟩
  | .hbm, ⟨53, _⟩ => ⟨S20000x256, .f32⟩
  | .hbm, ⟨54, _⟩ => ⟨S_, .i32⟩
  | .hbm, ⟨55, _⟩ => ⟨S320000, .i32⟩
  | .hbm, ⟨56, _⟩ => ⟨S320000, .i1⟩
  | .hbm, ⟨57, _⟩ => ⟨S_, .i32⟩
  | .hbm, ⟨58, _⟩ => ⟨S320000, .i32⟩
  | .hbm, ⟨59, _⟩ => ⟨S320000, .i32⟩
  | .hbm, ⟨60, _⟩ => ⟨S320000, .i32⟩
  | .hbm, ⟨61, _⟩ => ⟨S320000x1, .i32⟩
  | .hbm, ⟨62, _⟩ => ⟨S320000x256, .f32⟩
  | .hbm, ⟨63, _⟩ => ⟨S_, .f32⟩
  | .hbm, ⟨64, _⟩ => ⟨S20000x256, .f32⟩
  | .hbm, ⟨65, _⟩ => ⟨S320000x1, .i32⟩
  | .hbm, ⟨66, _⟩ => ⟨S20000x256, .f32⟩
  | .hbm, ⟨67, _⟩ => ⟨S1x256, .f32⟩
  | .hbm, ⟨68, _⟩ => ⟨S20000x256, .f32⟩
  | .hbm, ⟨69, _⟩ => ⟨S20000x256, .f32⟩
  | .hbm, ⟨70, _⟩ => ⟨S1x100000, .i32⟩
  | .hbm, ⟨71, _⟩ => ⟨S100000, .i32⟩
  | .hbm, ⟨72, _⟩ => ⟨S_, .i32⟩
  | .hbm, ⟨73, _⟩ => ⟨S100000, .i32⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S100000x256, .f32⟩
  | .hbm, ⟨81, _⟩ => ⟨S1x100000, .i32⟩
  | .hbm, ⟨82, _⟩ => ⟨S100000, .i32⟩
  | .hbm, ⟨83, _⟩ => ⟨S_, .i32⟩
  | .hbm, ⟨84, _⟩ => ⟨S100000, .i32⟩
  | .hbm, ⟨85, _⟩ => ⟨S100000, .i1⟩
  | .hbm, ⟨86, _⟩ => ⟨S_, .i32⟩
  | .hbm, ⟨87, _⟩ => ⟨S100000, .i32⟩
  | .hbm, ⟨88, _⟩ => ⟨S100000, .i32⟩
  | .hbm, ⟨89, _⟩ => ⟨S100000, .i32⟩
  | .hbm, ⟨90, _⟩ => ⟨S100000x1, .i32⟩
  | .hbm, ⟨91, _⟩ => ⟨S100000x256, .f32⟩
  | .hbm, ⟨92, _⟩ => ⟨S100000x256, .f32⟩
  | .hbm, ⟨93, _⟩ => ⟨S_, .f32⟩
  | .hbm, ⟨94, _⟩ => ⟨S100000, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x256_S100000_d1 : S100000x256.ReducesTo [1] S100000
  h_S_ : 0 < S_.numel
  dot_S20000x512_S512x512_S20000x512_1_0_0_1_n_n_wf : DotDims.WF S20000x512 S512x512 S20000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x256_S20000x256_1_0_0_1_n_n_wf : DotDims.WF S20000x512 S512x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  gather_S20000x256_S100000x1_S100000x256_1_0_n_n_0_1_1256_wf : GatherDims.WF S20000x256 S100000x1 S100000x256 [1] [0] [] [0] [] 1 ![1, 256]

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf

class Facts : Prop extends Facts₀ where

variable [Facts]
-- ==== Proof.KernelRun.lean ====
/-
  The kernel program's run with its result kept.

  The program is nine segments: host operations, a call, host operations (twice), a call, host operations (twice), a
  call, host operations. The library's launch of a list of segments says: every weakly fair execution terminates
  without a fault, provided each segment's end state is the next one's start state, the first start state can be made
  from what a launch deals each core, and the last end state is read against the final memory. Here the start state
  of the first segment is "every unscoped buffer at its launch contents", each later boundary's is "every unscoped
  buffer at what the segments so far leave there", and the last, `W9`, read against the final memory, gives the
  contents of every unscoped buffer at the return: the result buffer's in particular, and each argument's, which no
  segment writes.
-/
import proofs.«161957_j88278757802628_2_alg».proof.Proof.Gen.KernelIdeal.Frame

set_option maxRecDepth 16384

noncomputable section

namespace Cert.Bridge.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the return every unscoped buffer of core `c` holds what the last boundary says. -/
abbrev AtReturn (c : Dev nD) (s : MemSt nD τ sig (Elt F)) : Prop :=
  ∀ b ∈ Pipeline.ucRefs τ sig, s.mem (((c : Thread nD τ)).1, b) = W9 m ρ c b

-- the launch theorem's implicit arguments are found by unifying its conclusion with this statement, which takes
-- unfolding plain definitions in a metavariable's type
set_option backward.isDefEq.respectTransparency.types false in
/-- From any memory with zero counters every weakly fair execution of the program terminates without a fault, the
    result buffer ends at what the last boundary leaves at its reference, and every argument array ends as launched. -/
theorem run_result : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit (pcfgs (F := F)) adm (pdats m ρ) () cellOf_inj emb₁ defs₀ 𝒱₀ L lv m ρ main (segs m ρ)
    (fun c Q => by rw [main_run m ρ c]) ?nodup (O₀ := 0) (hL := fun _ _ => rfl) (G := fun _ => iprop(emp))
    (u₀ := initOf (Pipeline.cells cfgs cellOf_inj) (Pipeline.launchToks cfgs cellOf_inj)) ?tokens
    (T₀ := fun c => iprop(StableHlo.held (c : Thread nD τ) (Pipeline.ucRefs τ sig) (W0 m ρ c) ∗ R c)) (Tₙ := Tₙ m ρ)
    ?links ?first (QY := AtReturn m ρ) ?last ?post
  case nodup =>
    -- each of the three calls is entered once
    simp only [segs, Pipeline.Seg.pipes_host, Pipeline.Seg.pipes_region, Pipeline.Seg.pipes_nil]; decide
  case tokens =>
    -- the launch element is the staging cells' own; no core needs a resource beside it
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case links =>
    -- every segment starts from the state the one before it ends in; after the last, the generator register is
    -- regrouped with the buffers and the core owes nothing
    refine ⟨fun _ => .rfl, fun _ => .rfl, fun _ => .rfl, fun _ => .rfl, fun _ => .rfl, fun _ => .rfl, fun _ => .rfl,
      fun _ => .rfl, fun _ => .rfl, fun c => ?_⟩
    dsimp only [Pipeline.Seg.post, hseg, Pipeline.HostSeg.ofOps]
    iintro ⟨Hbufs, Hprng, Howes⟩
    isplitr [Howes]
    · isplitl [Hbufs]
      · iexact Hbufs
      · iexact Hprng
    · iexact Howes
  case first =>
    -- each core, from what the launch deals it: its unscoped buffers at the launch memory, its generator register,
    -- and owing nothing
    refine Pipeline.initEach L lv fun c => ?_
    have hheld : (unscopedBufs c (fun b => m ((c : Thread nD τ).loc b)) : sProp 𝕄) = StableHlo.held (c : Thread nD τ) (Pipeline.ucRefs τ sig) (W0 m ρ c) :=
      Pipeline.unscopedBufs_held c (W0 m ρ c)
    rw [hheld]
    iintro ⟨⟨Hbufs, -, Howes, -, Hprng, -⟩, -⟩
    imodintro
    isplitl [Hbufs]
    · iexact Hbufs
    isplitl [Hprng]
    · iexists _; iexact Hprng
    · iexists ∅; iexact Howes
  case last =>
    -- the last state's points-to facts, read against the final memory
    intro c s'
    iintro ⟨⟨Hbufs, -⟩, Hstate⟩
    unfold StableHlo.held
    imodintro
    iapply (pointsTo_read_all (Pipeline.ucRefs τ sig) (fun b => (((c : Thread nD τ)).1, b)) (W9 m ρ c) s')
    isplitl [Hbufs] <;> iassumption
  case post =>
    -- the result at its own reference; each argument walked back through the segments to the launch memory
    intro s h c
    exact ⟨h c _ (mem_uc main_v73 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c)⟩

end Cert.Bridge.KernelRun

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibProduct.lean ====
/-
  The rows-by-columns product as ONE function of two arrays, and the two spellings of it that programs use.

  `prod x w (a, b) = Σ_k x (a, k) · w (k, b)` over the extended reals. For dimension numbers that contract the left
  operand's second axis with the right operand's first and batch nothing, both the matrix unit's product
  accumulated into a zero array and the host's `dot_general` are this function, whatever formats the operands are
  stored in: on the extended reals a format is only a label.
-/
import Idealize.ShloMosaic.PureOps.Ideal.Laws
import Idealize.ShloMosaic.Lib.ValueIdx
import proofs.«161957_j88278757802628_2_alg».proof.Proof.LibDot

noncomputable section

open scoped BigOperators

namespace Idealize.ShloMosaic.RowsByCols

open Idealize.ShloMosaic Idealize.ShloMosaic.ValueIdx

variable {M K N : ℕ}

/-- The product of an `M × K` array and a `K × N` array: entry `(a, b)` is `Σ_k x (a, k) · w (k, b)`. -/
def prod (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (n1 := K) (i 0) k) * w (ix2 (n0 := K) (n1 := N) k (i 1))

/-- The product at explicit coordinates. -/
theorem prod_apply (x : (⟨2, ![M, K]⟩ : Shape).Idx → EReal) (w : (⟨2, ![K, N]⟩ : Shape).Idx → EReal) (a : Fin M) (b : Fin N) :
    prod x w (ix2 a b) = ∑ k : Fin K, x (ix2 a k) * w (ix2 k b) := rfl

/-- The host's `dot_general` with dimension numbers `[1] × [0]` and no batch axes is the product. -/
theorem host_eq {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ φ₁) (r : FVec Ideal ⟨2, ![K, N]⟩ φ₂) :
    Host.dotGeneral D prec l r = prod l r := by
  funext j
  obtain ⟨a, b, rfl⟩ : ∃ (a : Fin M) (b : Fin N), j = ix2 a b := ⟨j 0, j 1, eq_ix2 j⟩
  show FloatOps.dotGeneral D prec .single l r (ix2 a b) = _
  rw [Ideal.dotGeneral_apply, PlainDot.sum_eq D h1 h2 h3 h4 h5 h6]
  rfl

/-- The matrix unit's product with the same dimension numbers, accumulated into the zero array, is the product. -/
theorem mxu_eq {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ φ₁) (r : FVec Ideal ⟨2, ![K, N]⟩ φ₂) :
    matmul D prec l r (constant (F := Ideal) ⟨2, ![M, N]⟩ .f32 0x00000000#32) = prod l r := by
  funext j
  obtain ⟨a, b, rfl⟩ : ∃ (a : Fin M) (b : Fin N), j = ix2 a b := ⟨j 0, j 1, eq_ix2 j⟩
  show FloatOps.matmul D prec l r (constant (F := Ideal) ⟨2, ![M, N]⟩ .f32 0x00000000#32) (ix2 a b) = _
  rw [Ideal.matmul_constant_zero_apply, PlainDot.sum_eq D h1 h2 h3 h4 h5 h6]
  rfl

end Idealize.ShloMosaic.RowsByCols

end
-- ==== Proof.Region0.lean ====
/-
  The first layer's dense product, as the array it leaves.

  The call walks ten grid points; point `t` loads rows `2000·t … 2000·t + 1999` of the node features, the whole
  weight matrix, multiplies them on the matrix unit into a zero accumulator and writes the `2000 × 512` result back as
  rows `2000·t …` of the output. On the extended reals the changes of format around the product are the identity, so
  each block is the corresponding block of the rows-by-columns product of the two arrays the call was entered with, and
  the ten blocks tile the output: after the call it holds that product, whatever the entry contents were.
-/
import proofs.«161957_j88278757802628_2_alg».proof.Proof.Gen.KernelIdeal.Frame
import proofs.«161957_j88278757802628_2_alg».proof.Proof.LibProduct
import Idealize.ShloMosaic.Lib.Pipeline.Value

set_option maxRecDepth 16384

noncomputable section

namespace Cert.Bridge.Region0

open Cert.KernelIdeal Cert.KernelIdeal.Gen
open Idealize.ShloMosaic Idealize.ShloMosaic.TcCoe Idealize.ShloMosaic.ValueIdx Idealize.SL.Sem
open Idealize.ShloMosaic.Pipeline (Dat)

-- the contents of the TensorCore's buffers when the call is entered: a parameter
variable (V : (c : Dev nD) → (b : Ref sig .tc) → Buf (Elt Ideal) ((c : Thread nD τ).loc b))

theorem offsets_zero : (![0, 0] : Fin 2 → Nat) = fun _ => 0 := funext fun a => by fin_cases a <;> rfl

/-- What the body stores is the product of the two blocks it loaded. -/
theorem payload_eq (x0 : Vec Ideal S2000x512 .f32) (x1 : Vec Ideal S512x512 .bf16) :
    k0_pay1 x0 x1 = RowsByCols.prod (M := 2000) (K := 512) (N := 512) x0 x1 := by
  unfold k0_pay1
  dsimp only
  rw [shapeCast_self]
  exact RowsByCols.mxu_eq (φ₁ := .bf16) (φ₂ := .bf16) _ rfl rfl rfl rfl rfl rfl none _ _

/-- Entry `(p, q)` of the stored block, when row `p` of the loaded feature block is row `row` of an array `X` and
    the loaded weight block is `Wt`: entry `(row, q)` of the product of `X` and `Wt`. -/
theorem block_entry (x0 : Vec Ideal S2000x512 .f32) (x1 : Vec Ideal S512x512 .bf16)
    (X : S20000x512.Idx → EReal) (Wt : S512x512.Idx → EReal) (row : Fin 20000) (p : Fin 2000) (q : Fin 512)
    (hx : ∀ k : Fin 512, x0 (ix2 p k) = X (ix2 row k)) (hw : ∀ k : Fin 512, x1 (ix2 k q) = Wt (ix2 k q)) :
    k0_pay1 x0 x1 (ix2 p q) = RowsByCols.prod (M := 20000) (K := 512) (N := 512) X Wt (ix2 row q) := by
  rw [payload_eq, RowsByCols.prod_apply, RowsByCols.prod_apply]
  exact Finset.sum_congr rfl fun k _ => by rw [hx k, hw k]

/-- The printed index maps over the ten points: the feature and output blocks move down with the point, the weight
    block stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the feature array and the weight array as entered. -/
theorem flushed_eq (c : Dev nD) (t : Fin cfg0.N) :
    (dat0 V c).flushed 2 t = ((cfg0.win 2).blk t).view.read (Elt Ideal)
      (RowsByCols.prod (M := 20000) (K := 512) (N := 512) (V c main_arg0) (V c main_v4)) := by
  show (cfg0.win 2).cut (grid0.coords t) ((dat0 V c).after 2 t) = _
  rw [after0_2]
  unfold out0_2
  rw [View.canon_unit_zero offsets_zero]
  simp only [View.ld_unit_zero (S := S2000x512) offsets_zero, View.ld_unit_zero (S := S512x512) offsets_zero]
  obtain ⟨e0, e1, e2, e3, e4, e5⟩ := index_maps t
  have ht : t.val < 10 := t.isLt
  funext j
  obtain ⟨p, q, rfl⟩ : ∃ (p : Fin 2000) (q : Fin 512), j = ix2 p q := ⟨j 0, j 1, eq_ix2 j⟩
  have hp : p.val < 2000 := p.isLt
  rw [View.read_apply]
  refine (block_entry _ _ (V c main_arg0) (V c main_v4) ⟨t.val * 2000 + p.val, by omega⟩ p q ?_ ?_).trans ?_
  · intro k
    show V c main_arg0 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 512 + 1 * k.val = k.val; omega
  · intro k
    show V c main_v4 (((cfg0.win 1).blk t).view.emb (ix2 k q)) = _
    refine congrArg _ (funext fun a => Fin.ext ?_)
    match a with
    | ⟨0, _⟩ => show win0_1.index t (0 : Fin 2) * 512 + 1 * k.val = k.val; omega
    | ⟨1, _⟩ => show win0_1.index t (1 : Fin 2) * 512 + 1 * q.val = q.val; omega
  · refine congrArg _ (funext fun a => Fin.ext ?_)
    match a with
    | ⟨0, _⟩ => show t.val * 2000 + p.val = win0_2.index t (0 : Fin 2) * 2000 + 1 * p.val; omega
    | ⟨1, _⟩ => show q.val = win0_2.index t (1 : Fin 2) * 512 + 1 * q.val; omega

/-- An index of the output array is in point `t`'s block iff each coordinate is in the block's range on its axis. -/
theorem mem_blk (t : Fin cfg0.N) (i : S20000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v7).slice (win0_2.rect t)).set ↔ _
  rw [View.set_slice_whole, Rect.mem_set_unit]
  exact Iff.rfl

/-- Row `r` of the output is written by point `r / 2000`: the blocks tile the array. -/
theorem covered (i : S20000x512.Idx) :
    ∃ t : Fin cfg0.N, (cfg0.win 2).flush t = true ∧ i ∈ ((cfg0.win 2).blk t).view.set := by
  have hi0 : (i 0).val < 20000 := (i 0).isLt
  have hi1 : (i 1).val < 512 := (i 1).isLt
  obtain ⟨e0, e1, e2, e3, e4, e5⟩ := index_maps ⟨(i 0).val / 2000, by show (i 0).val / 2000 < 10; omega⟩
  refine ⟨⟨(i 0).val / 2000, by show (i 0).val / 2000 < 10; omega⟩, flush0_2 _, ?_⟩
  rw [mem_blk]
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 512 ≤ (i 1).val ∧ (i 1).val < win0_2.index _ (1 : Fin 2) * 512 + 512
    rw [e5]; omega

/-- After the call the output array holds the product of the feature array and the weight array as entered. -/
theorem result (c : Dev nD) :
    (dat0 V c).arrAt 2 cfg0.N = RowsByCols.prod (M := 20000) (K := 512) (N := 512) (V c main_arg0) (V c main_v4) :=
  (dat0 V c).arrAt_eq_of_cover 2 _ (fun t _ => flushed_eq V c t) covered

end Cert.Bridge.Region0

end
-- ==== Proof.Region1.lean ====
/-
  The second layer's dense product, as the array it leaves.

  The same call shape as the first layer's, on the hidden features the first layer produced: point `t` multiplies rows
  `2000·t … 2000·t + 1999` of the hidden array by the whole `512 × 512` weight matrix into a zero accumulator and writes
  the block back in place. The casts around the product (a same-shape cast, two changes of format) are the identity on
  the extended reals; the ten blocks tile the output, which therefore ends holding the rows-by-columns product of the
  two arrays the call was entered with.
-/
import proofs.«161957_j88278757802628_2_alg».proof.Proof.Gen.KernelIdeal.Frame
import proofs.«161957_j88278757802628_2_alg».proof.Proof.LibProduct
import Idealize.ShloMosaic.Lib.Pipeline.Value

set_option maxRecDepth 16384

noncomputable section

namespace Cert.Bridge.Region1

open Cert.KernelIdeal Cert.KernelIdeal.Gen
open Idealize.ShloMosaic Idealize.ShloMosaic.TcCoe Idealize.ShloMosaic.ValueIdx Idealize.SL.Sem
open Idealize.ShloMosaic.Pipeline (Dat)

-- the contents of the TensorCore's buffers when the call is entered: a parameter
variable (V : (c : Dev nD) → (b : Ref sig .tc) → Buf (Elt Ideal) ((c : Thread nD τ).loc b))

theorem offsets_zero : (![0, 0] : Fin 2 → Nat) = fun _ => 0 := funext fun a => by fin_cases a <;> rfl

/-- What the body stores is the product of the two blocks it loaded. -/
theorem payload_eq (x0 : Vec Ideal S2000x512 .f32) (x1 : Vec Ideal S512x512 .bf16) :
    k1_pay1 x0 x1 = RowsByCols.prod (M := 2000) (K := 512) (N := 512) x0 x1 := by
  unfold k1_pay1
  dsimp only
  rw [shapeCast_self, shapeCast_self]
  exact RowsByCols.mxu_eq (φ₁ := .bf16) (φ₂ := .bf16) _ rfl rfl rfl rfl rfl rfl none _ _

/-- Entry `(p, q)` of the stored block, when row `p` of the loaded feature block is row `row` of an array `X` and
    the loaded weight block is `Wt`: entry `(row, q)` of the product of `X` and `Wt`. -/
theorem block_entry (x0 : Vec Ideal S2000x512 .f32) (x1 : Vec Ideal S512x512 .bf16)
    (X : S20000x512.Idx → EReal) (Wt : S512x512.Idx → EReal) (row : Fin 20000) (p : Fin 2000) (q : Fin 512)
    (hx : ∀ k : Fin 512, x0 (ix2 p k) = X (ix2 row k)) (hw : ∀ k : Fin 512, x1 (ix2 k q) = Wt (ix2 k q)) :
    k1_pay1 x0 x1 (ix2 p q) = RowsByCols.prod (M := 20000) (K := 512) (N := 512) X Wt (ix2 row q) := by
  rw [payload_eq, RowsByCols.prod_apply, RowsByCols.prod_apply]
  exact Finset.sum_congr rfl fun k _ => by rw [hx k, hw k]

/-- The printed index maps over the ten points: the feature and output blocks move down with the point, the weight
    block stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the feature array and the weight array as entered. -/
theorem flushed_eq (c : Dev nD) (t : Fin cfg1.N) :
    (dat1 V c).flushed 2 t = ((cfg1.win 2).blk t).view.read (Elt Ideal)
      (RowsByCols.prod (M := 20000) (K := 512) (N := 512) (V c main_v22) (V c main_v5)) := by
  show (cfg1.win 2).cut (grid1.coords t) ((dat1 V c).after 2 t) = _
  rw [after1_2]
  unfold out1_2
  rw [View.canon_unit_zero offsets_zero]
  simp only [View.ld_unit_zero (S := S2000x512) offsets_zero, View.ld_unit_zero (S := S512x512) offsets_zero]
  obtain ⟨e0, e1, e2, e3, e4, e5⟩ := index_maps t
  have ht : t.val < 10 := t.isLt
  funext j
  obtain ⟨p, q, rfl⟩ : ∃ (p : Fin 2000) (q : Fin 512), j = ix2 p q := ⟨j 0, j 1, eq_ix2 j⟩
  have hp : p.val < 2000 := p.isLt
  rw [View.read_apply]
  refine (block_entry _ _ (V c main_v22) (V c main_v5) ⟨t.val * 2000 + p.val, by omega⟩ p q ?_ ?_).trans ?_
  · intro k
    show V c main_v22 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 512 + 1 * k.val = k.val; omega
  · intro k
    show V c main_v5 (((cfg1.win 1).blk t).view.emb (ix2 k q)) = _
    refine congrArg _ (funext fun a => Fin.ext ?_)
    match a with
    | ⟨0, _⟩ => show win1_1.index t (0 : Fin 2) * 512 + 1 * k.val = k.val; omega
    | ⟨1, _⟩ => show win1_1.index t (1 : Fin 2) * 512 + 1 * q.val = q.val; omega
  · refine congrArg _ (funext fun a => Fin.ext ?_)
    match a with
    | ⟨0, _⟩ => show t.val * 2000 + p.val = win1_2.index t (0 : Fin 2) * 2000 + 1 * p.val; omega
    | ⟨1, _⟩ => show q.val = win1_2.index t (1 : Fin 2) * 512 + 1 * q.val; omega

/-- An index of the output array is in point `t`'s block iff each coordinate is in the block's range on its axis. -/
theorem mem_blk (t : Fin cfg1.N) (i : S20000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v23).slice (win1_2.rect t)).set ↔ _
  rw [View.set_slice_whole, Rect.mem_set_unit]
  exact Iff.rfl

/-- Row `r` of the output is written by point `r / 2000`: the blocks tile the array. -/
theorem covered (i : S20000x512.Idx) :
    ∃ t : Fin cfg1.N, (cfg1.win 2).flush t = true ∧ i ∈ ((cfg1.win 2).blk t).view.set := by
  have hi0 : (i 0).val < 20000 := (i 0).isLt
  have hi1 : (i 1).val < 512 := (i 1).isLt
  obtain ⟨e0, e1, e2, e3, e4, e5⟩ := index_maps ⟨(i 0).val / 2000, by show (i 0).val / 2000 < 10; omega⟩
  refine ⟨⟨(i 0).val / 2000, by show (i 0).val / 2000 < 10; omega⟩, flush1_2 _, ?_⟩
  rw [mem_blk]
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 512 ≤ (i 1).val ∧ (i 1).val < win1_2.index _ (1 : Fin 2) * 512 + 512
    rw [e5]; omega

/-- After the call the output array holds the product of the feature array and the weight array as entered. -/
theorem result (c : Dev nD) :
    (dat1 V c).arrAt 2 cfg1.N = RowsByCols.prod (M := 20000) (K := 512) (N := 512) (V c main_v22) (V c main_v5) :=
  (dat1 V c).arrAt_eq_of_cover 2 _ (fun t _ => flushed_eq V c t) covered

end Cert.Bridge.Region1

end
-- ==== Proof.Region2.lean ====
/-
  The third layer's dense product, as the array it leaves.

  The same call shape again with a `512 × 256` weight matrix: point `t` multiplies rows `2000·t … 2000·t + 1999` of the
  hidden array by the whole weight matrix into a zero accumulator and writes the `2000 × 256` block back in place. The
  casts around the product are the identity on the extended reals; the ten blocks tile the `20000 × 256` output, which
  ends holding the rows-by-columns product of the two arrays the call was entered with.
-/
import proofs.«161957_j88278757802628_2_alg».proof.Proof.Gen.KernelIdeal.Frame
import proofs.«161957_j88278757802628_2_alg».proof.Proof.LibProduct
import Idealize.ShloMosaic.Lib.Pipeline.Value

set_option maxRecDepth 16384

noncomputable section

namespace Cert.Bridge.Region2

open Cert.KernelIdeal Cert.KernelIdeal.Gen
open Idealize.ShloMosaic Idealize.ShloMosaic.TcCoe Idealize.ShloMosaic.ValueIdx Idealize.SL.Sem
open Idealize.ShloMosaic.Pipeline (Dat)

-- the contents of the TensorCore's buffers when the call is entered: a parameter
variable (V : (c : Dev nD) → (b : Ref sig .tc) → Buf (Elt Ideal) ((c : Thread nD τ).loc b))

theorem offsets_zero : (![0, 0] : Fin 2 → Nat) = fun _ => 0 := funext fun a => by fin_cases a <;> rfl

/-- What the body stores is the product of the two blocks it loaded. -/
theorem payload_eq (x0 : Vec Ideal S2000x512 .f32) (x1 : Vec Ideal S512x256 .bf16) :
    k2_pay1 x0 x1 = RowsByCols.prod (M := 2000) (K := 512) (N := 256) x0 x1 := by
  unfold k2_pay1
  dsimp only
  rw [shapeCast_self, shapeCast_self]
  exact RowsByCols.mxu_eq (φ₁ := .bf16) (φ₂ := .bf16) _ rfl rfl rfl rfl rfl rfl none _ _

/-- Entry `(p, q)` of the stored block, when row `p` of the loaded feature block is row `row` of an array `X` and
    the loaded weight block is `Wt`: entry `(row, q)` of the product of `X` and `Wt`. -/
theorem block_entry (x0 : Vec Ideal S2000x512 .f32) (x1 : Vec Ideal S512x256 .bf16)
    (X : S20000x512.Idx → EReal) (Wt : S512x256.Idx → EReal) (row : Fin 20000) (p : Fin 2000) (q : Fin 256)
    (hx : ∀ k : Fin 512, x0 (ix2 p k) = X (ix2 row k)) (hw : ∀ k : Fin 512, x1 (ix2 k q) = Wt (ix2 k q)) :
    k2_pay1 x0 x1 (ix2 p q) = RowsByCols.prod (M := 20000) (K := 512) (N := 256) X Wt (ix2 row q) := by
  rw [payload_eq, RowsByCols.prod_apply, RowsByCols.prod_apply]
  exact Finset.sum_congr rfl fun k _ => by rw [hx k, hw k]

/-- The printed index maps over the ten points: the feature and output blocks move down with the point, the weight
    block stays. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the feature array and the weight array as entered. -/
theorem flushed_eq (c : Dev nD) (t : Fin cfg2.N) :
    (dat2 V c).flushed 2 t = ((cfg2.win 2).blk t).view.read (Elt Ideal)
      (RowsByCols.prod (M := 20000) (K := 512) (N := 256) (V c main_v38) (V c main_v6)) := by
  show (cfg2.win 2).cut (grid2.coords t) ((dat2 V c).after 2 t) = _
  rw [after2_2]
  unfold out2_2
  rw [View.canon_unit_zero offsets_zero]
  simp only [View.ld_unit_zero (S := S2000x512) offsets_zero, View.ld_unit_zero (S := S512x256) offsets_zero]
  obtain ⟨e0, e1, e2, e3, e4, e5⟩ := index_maps t
  have ht : t.val < 10 := t.isLt
  funext j
  obtain ⟨p, q, rfl⟩ : ∃ (p : Fin 2000) (q : Fin 256), j = ix2 p q := ⟨j 0, j 1, eq_ix2 j⟩
  have hp : p.val < 2000 := p.isLt
  rw [View.read_apply]
  refine (block_entry _ _ (V c main_v38) (V c main_v6) ⟨t.val * 2000 + p.val, by omega⟩ p q ?_ ?_).trans ?_
  · intro k
    show V c main_v38 (((cfg2.win 0).blk t).view.emb (ix2 p k)) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 512 + 1 * k.val = k.val; omega
  · intro k
    show V c main_v6 (((cfg2.win 1).blk t).view.emb (ix2 k q)) = _
    refine congrArg _ (funext fun a => Fin.ext ?_)
    match a with
    | ⟨0, _⟩ => show win2_1.index t (0 : Fin 2) * 512 + 1 * k.val = k.val; omega
    | ⟨1, _⟩ => show win2_1.index t (1 : Fin 2) * 256 + 1 * q.val = q.val; omega
  · refine congrArg _ (funext fun a => Fin.ext ?_)
    match a with
    | ⟨0, _⟩ => show t.val * 2000 + p.val = win2_2.index t (0 : Fin 2) * 2000 + 1 * p.val; omega
    | ⟨1, _⟩ => show q.val = win2_2.index t (1 : Fin 2) * 256 + 1 * q.val; omega

/-- An index of the output array is in point `t`'s block iff each coordinate is in the block's range on its axis. -/
theorem mem_blk (t : Fin cfg2.N) (i : S20000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v39).slice (win2_2.rect t)).set ↔ _
  rw [View.set_slice_whole, Rect.mem_set_unit]
  exact Iff.rfl

/-- Row `r` of the output is written by point `r / 2000`: the blocks tile the array. -/
theorem covered (i : S20000x256.Idx) :
    ∃ t : Fin cfg2.N, (cfg2.win 2).flush t = true ∧ i ∈ ((cfg2.win 2).blk t).view.set := by
  have hi0 : (i 0).val < 20000 := (i 0).isLt
  have hi1 : (i 1).val < 256 := (i 1).isLt
  obtain ⟨e0, e1, e2, e3, e4, e5⟩ := index_maps ⟨(i 0).val / 2000, by show (i 0).val / 2000 < 10; omega⟩
  refine ⟨⟨(i 0).val / 2000, by show (i 0).val / 2000 < 10; omega⟩, flush2_2 _, ?_⟩
  rw [mem_blk]
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 256 ≤ (i 1).val ∧ (i 1).val < win2_2.index _ (1 : Fin 2) * 256 + 256
    rw [e5]; omega

/-- After the call the output array holds the product of the feature array and the weight array as entered. -/
theorem result (c : Dev nD) :
    (dat2 V c).arrAt 2 cfg2.N = RowsByCols.prod (M := 20000) (K := 512) (N := 256) (V c main_v38) (V c main_v6) :=
  (dat2 V c).arrAt_eq_of_cover 2 _ (fun t _ => flushed_eq V c t) covered

end Cert.Bridge.Region2

end
-- ==== Proof.Layers.lean ====
/-
  The network as functions of arrays.

  One layer sends node features `h` to `relu (A (h · W) + b)`: the rows of `lin = h · W` are gathered at each edge's
  source node, summed into the edge's destination node, and a bias row is added to every node. The third layer has no
  relu; the score of a labelled pair is the inner product of the two nodes' final rows. These are the host operations
  of the program, composed in its order, around the rows-by-columns product of LibProduct; edge and label endpoints
  are read as the program reads them (a negative index wraps once by the node count before the gather).
-/
import proofs.«161957_j88278757802628_2_alg».proof.Proof.Gen.KernelIdeal
import proofs.«161957_j88278757802628_2_alg».proof.Proof.LibProduct

noncomputable section

namespace Cert.Bridge.Layers

open Cert.KernelIdeal Cert.KernelIdeal.Facts₀ Idealize.ShloMosaic

/-- An array of extended reals or integers of a given shape. -/
abbrev Arr (S : Shape) (e : EltTy) : Type := (⟨S, e⟩ : BufTy).Contents (Elt Ideal)

/-- The edges' source nodes: row 0 of the edge list. -/
def sources (ei : Arr S2x320000 .i32) : Arr S320000 .i32 :=
  shapeCast S320000 (extractStridedSlice S1x320000 ![0, 0] ei slices_S2x320000_S1x320000_0_0) shapeCasts_S1x320000_S320000

/-- The edges' destination nodes: row 1 of the edge list. -/
def targets (ei : Arr S2x320000 .i32) : Arr S320000 .i32 :=
  shapeCast S320000 (extractStridedSlice S1x320000 ![1, 0] ei slices_S2x320000_S1x320000_1_0) shapeCasts_S1x320000_S320000

/-- A vector of node indices as the column a gather reads, a negative index wrapped once by the node count. -/
def wrapped (s : Arr S320000 .i32) : Arr S320000x1 .i32 :=
  broadcastInDim S320000x1 ![0] bcast_S320000_S320000x1_0
    (select (cmpi .slt s (broadcastInDim S320000 ![] bcast_S_S320000 (constantI S_ 32 0#32)))
      (addi s (broadcastInDim S320000 ![] bcast_S_S320000 (constantI S_ 32 20000#32))) s)

/-- A vector of node indices as the column a scatter reads. -/
def column (s : Arr S320000 .i32) : Arr S320000x1 .i32 :=
  broadcastInDim S320000x1 ![0] bcast_S320000_S320000x1_0 s

/-- Message passing at width 512: row `src e` of `lin` added into row `dst e` for every edge `e`, then the bias row
    added to every node. -/
def aggregate512 (lin : Arr S20000x512 .f32) (ei : Arr S2x320000 .i32) (b : Arr S512 .f32) : Arr S20000x512 .f32 :=
  addf
    (Host.scatterAdd scatter_S20000x512_S320000x1_S320000x512_1_0_0_1
      (broadcastInDim S20000x512 ![] bcast_S_S20000x512 (constant (F := Ideal) S_ .f32 0x00000000#32))
      (column (targets ei))
      (Host.gather gather_S20000x512_S320000x1_S320000x512_1_0_n_n_0_1_1512 lin (wrapped (sources ei))))
    (broadcastInDim S20000x512 ![0, 1] bcast_S1x512_S20000x512_0_1 (broadcastInDim S1x512 ![1] bcast_S512_S1x512_1 b))

/-- The same at width 256. -/
def aggregate256 (lin : Arr S20000x256 .f32) (ei : Arr S2x320000 .i32) (b : Arr S256 .f32) : Arr S20000x256 .f32 :=
  addf
    (Host.scatterAdd scatter_S20000x256_S320000x1_S320000x256_1_0_0_1
      (broadcastInDim S20000x256 ![] bcast_S_S20000x256 (constant (F := Ideal) S_ .f32 0x00000000#32))
      (column (targets ei))
      (Host.gather gather_S20000x256_S320000x1_S320000x256_1_0_n_n_0_1_1256 lin (wrapped (sources ei))))
    (broadcastInDim S20000x256 ![0, 1] bcast_S1x256_S20000x256_0_1 (broadcastInDim S1x256 ![1] bcast_S256_S1x256_1 b))

/-- `max (x, 0)`, entry by entry. -/
def relu512 (x : Arr S20000x512 .f32) : Arr S20000x512 .f32 :=
  maximumf x (broadcastInDim S20000x512 ![] bcast_S_S20000x512 (constant (F := Ideal) S_ .f32 0x00000000#32))

/-- Row `r` of the label list. -/
def labelRow0 (eli : Arr S2x100000 .i32) : Arr S100000 .i32 :=
  shapeCast S100000 (extractStridedSlice S1x100000 ![0, 0] eli slices_S2x100000_S1x100000_0_0) shapeCasts_S1x100000_S100000
def labelRow1 (eli : Arr S2x100000 .i32) : Arr S100000 .i32 :=
  shapeCast S100000 (extractStridedSlice S1x100000 ![1, 0] eli slices_S2x100000_S1x100000_1_0) shapeCasts_S1x100000_S100000

/-- Label endpoints as the column a gather reads, a negative index wrapped once by the node count. -/
def wrappedLabel (s : Arr S100000 .i32) : Arr S100000x1 .i32 :=
  broadcastInDim S100000x1 ![0] bcast_S100000_S100000x1_0
    (select (cmpi .slt s (broadcastInDim S100000 ![] bcast_S_S100000 (constantI S_ 32 0#32)))
      (addi s (broadcastInDim S100000 ![] bcast_S_S100000 (constantI S_ 32 20000#32))) s)

/-- The score of each labelled pair: the inner product of its two nodes' rows of `z`. -/
def decode (z : Arr S20000x256 .f32) (eli : Arr S2x100000 .i32) : Arr S100000 .f32 :=
  Host.reduceAdd
    (mulf (Host.gather gather_S20000x256_S100000x1_S100000x256_1_0_n_n_0_1_1256 z (wrappedLabel (labelRow0 eli)))
      (Host.gather gather_S20000x256_S100000x1_S100000x256_1_0_n_n_0_1_1256 z (wrappedLabel (labelRow1 eli))))
    (constant (F := Ideal) S_ .f32 0x00000000#32) reducesTo_S100000x256_S100000_d1 h_S_

/-- The hidden features after one layer, after two, and the final node embeddings. -/
def hidden1 (x : Arr S20000x512 .f32) (ei : Arr S2x320000 .i32) (w1 : Arr S512x512 .f32) (b1 : Arr S512 .f32) : Arr S20000x512 .f32 :=
  relu512 (aggregate512 (RowsByCols.prod (M := 20000) (K := 512) (N := 512) x w1) ei b1)
def hidden2 (x : Arr S20000x512 .f32) (ei : Arr S2x320000 .i32) (w1 : Arr S512x512 .f32) (b1 : Arr S512 .f32)
    (w2 : Arr S512x512 .f32) (b2 : Arr S512 .f32) : Arr S20000x512 .f32 :=
  relu512 (aggregate512 (RowsByCols.prod (M := 20000) (K := 512) (N := 512) (hidden1 x ei w1 b1) w2) ei b2)
def embeddings (x : Arr S20000x512 .f32) (ei : Arr S2x320000 .i32) (w1 : Arr S512x512 .f32) (b1 : Arr S512 .f32)
    (w2 : Arr S512x512 .f32) (b2 : Arr S512 .f32) (w3 : Arr S512x256 .f32) (b3 : Arr S256 .f32) : Arr S20000x256 .f32 :=
  aggregate256 (RowsByCols.prod (M := 20000) (K := 512) (N := 256) (hidden2 x ei w1 b1 w2 b2) w3) ei b3

/-- The whole network: the labelled pairs' scores as a function of the nine argument arrays. -/
def scores (x : Arr S20000x512 .f32) (ei : Arr S2x320000 .i32) (eli : Arr S2x100000 .i32) (w1 : Arr S512x512 .f32) (b1 : Arr S512 .f32)
    (w2 : Arr S512x512 .f32) (b2 : Arr S512 .f32) (w3 : Arr S512x256 .f32) (b3 : Arr S256 .f32) : Arr S100000 .f32 :=
  decode (embeddings x ei w1 b1 w2 b2 w3 b3) eli

end Cert.Bridge.Layers

end
-- ==== Proof.Stages.lean ====
/-
  What each boundary of the kernel program holds.

  Between its three calls the program runs host operations on whole arrays. Walking the nine segments in order, this
  module records, at each boundary, the contents of the buffers the rest of the program still reads, as functions of
  the launch memory: the edge rows and the weights after the first stretch (a change of format is the identity on the
  extended reals); each call's output as the rows-by-columns product of its two operands as entered; each layer's
  output after the gather, the scatter-add, the bias and the relu; and at the return the scores. A buffer no operation
  of a stretch writes, and no call's window names as output, keeps its contents across it.
-/
import proofs.«161957_j88278757802628_2_alg».proof.Proof.Gen.KernelIdeal.Frame
import proofs.«161957_j88278757802628_2_alg».proof.Proof.Region0
import proofs.«161957_j88278757802628_2_alg».proof.Proof.Region1
import proofs.«161957_j88278757802628_2_alg».proof.Proof.Region2
import proofs.«161957_j88278757802628_2_alg».proof.Proof.Layers
import Idealize.ShloMosaic.Lib.StableHlo.Run

set_option maxRecDepth 16384

noncomputable section

namespace Cert.Bridge.Stages

open Cert.KernelIdeal Cert.KernelIdeal.Gen Cert.Bridge Cert.Bridge.Layers
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first stretch: the edge rows and the weights as read from the arguments -/

theorem at1_x : (W1 m ρ c (Proc.devRef .tc main_arg0) : Arr S20000x512 .f32) = (m ((c : Thread nD τ).loc main_arg0)) := by
  show (StableHlo.after hostOps0 (W0 m ρ c) (Proc.devRef .tc main_arg0) : Arr S20000x512 .f32) = _
  dsimp only [hostOps0]
  after_results_simp <;> rfl
theorem at1_src : (W1 m ρ c (Proc.devRef .tc main_v1) : Arr S320000 .i32) = (sources (m ((c : Thread nD τ).loc main_arg1))) := by
  show (StableHlo.after hostOps0 (W0 m ρ c) (Proc.devRef .tc main_v1) : Arr S320000 .i32) = _
  dsimp only [hostOps0]
  after_results_simp <;> rfl
theorem at1_dst : (W1 m ρ c (Proc.devRef .tc main_v3) : Arr S320000 .i32) = (targets (m ((c : Thread nD τ).loc main_arg1))) := by
  show (StableHlo.after hostOps0 (W0 m ρ c) (Proc.devRef .tc main_v3) : Arr S320000 .i32) = _
  dsimp only [hostOps0]
  after_results_simp <;> rfl
theorem at1_w1 : (W1 m ρ c (Proc.devRef .tc main_v4) : Arr S512x512 .f32) = (m ((c : Thread nD τ).loc main_arg3)) := by
  show (StableHlo.after hostOps0 (W0 m ρ c) (Proc.devRef .tc main_v4) : Arr S512x512 .f32) = _
  dsimp only [hostOps0]
  after_results_simp <;> rfl
theorem at1_w2 : (W1 m ρ c (Proc.devRef .tc main_v5) : Arr S512x512 .f32) = (m ((c : Thread nD τ).loc main_arg5)) := by
  show (StableHlo.after hostOps0 (W0 m ρ c) (Proc.devRef .tc main_v5) : Arr S512x512 .f32) = _
  dsimp only [hostOps0]
  after_results_simp <;> rfl
theorem at1_w3 : (W1 m ρ c (Proc.devRef .tc main_v6) : Arr S512x256 .f32) = (m ((c : Thread nD τ).loc main_arg7)) := by
  show (StableHlo.after hostOps0 (W0 m ρ c) (Proc.devRef .tc main_v6) : Arr S512x256 .f32) = _
  dsimp only [hostOps0]
  after_results_simp <;> rfl
theorem at1_b1 : (W1 m ρ c (Proc.devRef .tc main_arg4) : Arr S512 .f32) = (m ((c : Thread nD τ).loc main_arg4)) := by
  show (StableHlo.after hostOps0 (W0 m ρ c) (Proc.devRef .tc main_arg4) : Arr S512 .f32) = _
  dsimp only [hostOps0]
  after_results_simp <;> rfl
theorem at1_b2 : (W1 m ρ c (Proc.devRef .tc main_arg6) : Arr S512 .f32) = (m ((c : Thread nD τ).loc main_arg6)) := by
  show (StableHlo.after hostOps0 (W0 m ρ c) (Proc.devRef .tc main_arg6) : Arr S512 .f32) = _
  dsimp only [hostOps0]
  after_results_simp <;> rfl
theorem at1_b3 : (W1 m ρ c (Proc.devRef .tc main_arg8) : Arr S256 .f32) = (m ((c : Thread nD τ).loc main_arg8)) := by
  show (StableHlo.after hostOps0 (W0 m ρ c) (Proc.devRef .tc main_arg8) : Arr S256 .f32) = _
  dsimp only [hostOps0]
  after_results_simp <;> rfl
theorem at1_lab : (W1 m ρ c (Proc.devRef .tc main_arg2) : Arr S2x100000 .i32) = (m ((c : Thread nD τ).loc main_arg2)) := by
  show (StableHlo.after hostOps0 (W0 m ρ c) (Proc.devRef .tc main_arg2) : Arr S2x100000 .i32) = _
  dsimp only [hostOps0]
  after_results_simp <;> rfl

/-! ## After the first call: its output is the product of the features and the first weights -/

theorem at2_lin : (W2 m ρ c (Proc.devRef .tc main_v7) : Arr S20000x512 .f32) = RowsByCols.prod (M := 20000) (K := 512) (N := 512) (m ((c : Thread nD τ).loc main_arg0)) (m ((c : Thread nD τ).loc main_arg3)) := by
  refine (W2_arr m ρ c 2).trans ((Region0.result (V1 m ρ) c).trans ?_)
  show RowsByCols.prod (M := 20000) (K := 512) (N := 512) (W1 m ρ c (Proc.devRef .tc main_arg0) : Arr S20000x512 .f32) (W1 m ρ c (Proc.devRef .tc main_v4) : Arr S512x512 .f32) = _
  rw [at1_x, at1_w1]
theorem at2_src : (W2 m ρ c (Proc.devRef .tc main_v1) : Arr S320000 .i32) = (sources (m ((c : Thread nD τ).loc main_arg1))) :=
  (W2_of_ne m ρ c main_v1 (by decide)).trans (at1_src m ρ c)
theorem at2_dst : (W2 m ρ c (Proc.devRef .tc main_v3) : Arr S320000 .i32) = (targets (m ((c : Thread nD τ).loc main_arg1))) :=
  (W2_of_ne m ρ c main_v3 (by decide)).trans (at1_dst m ρ c)
theorem at2_w2 : (W2 m ρ c (Proc.devRef .tc main_v5) : Arr S512x512 .f32) = (m ((c : Thread nD τ).loc main_arg5)) :=
  (W2_of_ne m ρ c main_v5 (by decide)).trans (at1_w2 m ρ c)
theorem at2_w3 : (W2 m ρ c (Proc.devRef .tc main_v6) : Arr S512x256 .f32) = (m ((c : Thread nD τ).loc main_arg7)) :=
  (W2_of_ne m ρ c main_v6 (by decide)).trans (at1_w3 m ρ c)
theorem at2_b1 : (W2 m ρ c (Proc.devRef .tc main_arg4) : Arr S512 .f32) = (m ((c : Thread nD τ).loc main_arg4)) :=
  (W2_of_ne m ρ c main_arg4 (by decide)).trans (at1_b1 m ρ c)
theorem at2_b2 : (W2 m ρ c (Proc.devRef .tc main_arg6) : Arr S512 .f32) = (m ((c : Thread nD τ).loc main_arg6)) :=
  (W2_of_ne m ρ c main_arg6 (by decide)).trans (at1_b2 m ρ c)
theorem at2_b3 : (W2 m ρ c (Proc.devRef .tc main_arg8) : Arr S256 .f32) = (m ((c : Thread nD τ).loc main_arg8)) :=
  (W2_of_ne m ρ c main_arg8 (by decide)).trans (at1_b3 m ρ c)
theorem at2_lab : (W2 m ρ c (Proc.devRef .tc main_arg2) : Arr S2x100000 .i32) = (m ((c : Thread nD τ).loc main_arg2)) :=
  (W2_of_ne m ρ c main_arg2 (by decide)).trans (at1_lab m ρ c)

/-! ## Before the second call: the first layer's output -/

theorem at4_h : (W4 m ρ c (Proc.devRef .tc main_v22) : Arr S20000x512 .f32) = (hidden1 (m ((c : Thread nD τ).loc main_arg0)) (m ((c : Thread nD τ).loc main_arg1)) (m ((c : Thread nD τ).loc main_arg3)) (m ((c : Thread nD τ).loc main_arg4))) := by
  show (StableHlo.after hostOps1_1 (StableHlo.after hostOps1 (W2 m ρ c)) (Proc.devRef .tc main_v22) : Arr S20000x512 .f32) = _
  dsimp only [hostOps1_1, hostOps1]
  after_results_simp
  rw [at2_lin, at2_src, at2_dst, at2_b1]
  rfl
theorem at4_src : (W4 m ρ c (Proc.devRef .tc main_v1) : Arr S320000 .i32) = (sources (m ((c : Thread nD τ).loc main_arg1))) := by
  show (StableHlo.after hostOps1_1 (StableHlo.after hostOps1 (W2 m ρ c)) (Proc.devRef .tc main_v1) : Arr S320000 .i32) = _
  dsimp only [hostOps1_1, hostOps1]
  after_results_simp
  exact at2_src m ρ c
theorem at4_dst : (W4 m ρ c (Proc.devRef .tc main_v3) : Arr S320000 .i32) = (targets (m ((c : Thread nD τ).loc main_arg1))) := by
  show (StableHlo.after hostOps1_1 (StableHlo.after hostOps1 (W2 m ρ c)) (Proc.devRef .tc main_v3) : Arr S320000 .i32) = _
  dsimp only [hostOps1_1, hostOps1]
  after_results_simp
  exact at2_dst m ρ c
theorem at4_w2 : (W4 m ρ c (Proc.devRef .tc main_v5) : Arr S512x512 .f32) = (m ((c : Thread nD τ).loc main_arg5)) := by
  show (StableHlo.after hostOps1_1 (StableHlo.after hostOps1 (W2 m ρ c)) (Proc.devRef .tc main_v5) : Arr S512x512 .f32) = _
  dsimp only [hostOps1_1, hostOps1]
  after_results_simp
  exact at2_w2 m ρ c
theorem at4_w3 : (W4 m ρ c (Proc.devRef .tc main_v6) : Arr S512x256 .f32) = (m ((c : Thread nD τ).loc main_arg7)) := by
  show (StableHlo.after hostOps1_1 (StableHlo.after hostOps1 (W2 m ρ c)) (Proc.devRef .tc main_v6) : Arr S512x256 .f32) = _
  dsimp only [hostOps1_1, hostOps1]
  after_results_simp
  exact at2_w3 m ρ c
theorem at4_b2 : (W4 m ρ c (Proc.devRef .tc main_arg6) : Arr S512 .f32) = (m ((c : Thread nD τ).loc main_arg6)) := by
  show (StableHlo.after hostOps1_1 (StableHlo.after hostOps1 (W2 m ρ c)) (Proc.devRef .tc main_arg6) : Arr S512 .f32) = _
  dsimp only [hostOps1_1, hostOps1]
  after_results_simp
  exact at2_b2 m ρ c
theorem at4_b3 : (W4 m ρ c (Proc.devRef .tc main_arg8) : Arr S256 .f32) = (m ((c : Thread nD τ).loc main_arg8)) := by
  show (StableHlo.after hostOps1_1 (StableHlo.after hostOps1 (W2 m ρ c)) (Proc.devRef .tc main_arg8) : Arr S256 .f32) = _
  dsimp only [hostOps1_1, hostOps1]
  after_results_simp
  exact at2_b3 m ρ c
theorem at4_lab : (W4 m ρ c (Proc.devRef .tc main_arg2) : Arr S2x100000 .i32) = (m ((c : Thread nD τ).loc main_arg2)) := by
  show (StableHlo.after hostOps1_1 (StableHlo.after hostOps1 (W2 m ρ c)) (Proc.devRef .tc main_arg2) : Arr S2x100000 .i32) = _
  dsimp only [hostOps1_1, hostOps1]
  after_results_simp
  exact at2_lab m ρ c

/-! ## After the second call -/

theorem at5_lin : (W5 m ρ c (Proc.devRef .tc main_v23) : Arr S20000x512 .f32) = RowsByCols.prod (M := 20000) (K := 512) (N := 512) (hidden1 (m ((c : Thread nD τ).loc main_arg0)) (m ((c : Thread nD τ).loc main_arg1)) (m ((c : Thread nD τ).loc main_arg3)) (m ((c : Thread nD τ).loc main_arg4))) (m ((c : Thread nD τ).loc main_arg5)) := by
  refine (W5_arr m ρ c 2).trans ((Region1.result (V4 m ρ) c).trans ?_)
  show RowsByCols.prod (M := 20000) (K := 512) (N := 512) (W4 m ρ c (Proc.devRef .tc main_v22) : Arr S20000x512 .f32) (W4 m ρ c (Proc.devRef .tc main_v5) : Arr S512x512 .f32) = _
  rw [at4_h, at4_w2]
theorem at5_src : (W5 m ρ c (Proc.devRef .tc main_v1) : Arr S320000 .i32) = (sources (m ((c : Thread nD τ).loc main_arg1))) :=
  (W5_of_ne m ρ c main_v1 (by decide)).trans (at4_src m ρ c)
theorem at5_dst : (W5 m ρ c (Proc.devRef .tc main_v3) : Arr S320000 .i32) = (targets (m ((c : Thread nD τ).loc main_arg1))) :=
  (W5_of_ne m ρ c main_v3 (by decide)).trans (at4_dst m ρ c)
theorem at5_w3 : (W5 m ρ c (Proc.devRef .tc main_v6) : Arr S512x256 .f32) = (m ((c : Thread nD τ).loc main_arg7)) :=
  (W5_of_ne m ρ c main_v6 (by decide)).trans (at4_w3 m ρ c)
theorem at5_b2 : (W5 m ρ c (Proc.devRef .tc main_arg6) : Arr S512 .f32) = (m ((c : Thread nD τ).loc main_arg6)) :=
  (W5_of_ne m ρ c main_arg6 (by decide)).trans (at4_b2 m ρ c)
theorem at5_b3 : (W5 m ρ c (Proc.devRef .tc main_arg8) : Arr S256 .f32) = (m ((c : Thread nD τ).loc main_arg8)) :=
  (W5_of_ne m ρ c main_arg8 (by decide)).trans (at4_b3 m ρ c)
theorem at5_lab : (W5 m ρ c (Proc.devRef .tc main_arg2) : Arr S2x100000 .i32) = (m ((c : Thread nD τ).loc main_arg2)) :=
  (W5_of_ne m ρ c main_arg2 (by decide)).trans (at4_lab m ρ c)

/-! ## Before the third call: the second layer's output -/

theorem at7_h : (W7 m ρ c (Proc.devRef .tc main_v38) : Arr S20000x512 .f32) = (hidden2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show (StableHlo.after hostOps2_1 (StableHlo.after hostOps2 (W5 m ρ c)) (Proc.devRef .tc main_v38) : Arr S20000x512 .f32) = _
  dsimp only [hostOps2_1, hostOps2]
  after_results_simp
  rw [at5_lin, at5_src, at5_dst, at5_b2]
  rfl
theorem at7_src : (W7 m ρ c (Proc.devRef .tc main_v1) : Arr S320000 .i32) = (sources (m ((c : Thread nD τ).loc main_arg1))) := by
  show (StableHlo.after hostOps2_1 (StableHlo.after hostOps2 (W5 m ρ c)) (Proc.devRef .tc main_v1) : Arr S320000 .i32) = _
  dsimp only [hostOps2_1, hostOps2]
  after_results_simp
  exact at5_src m ρ c
theorem at7_dst : (W7 m ρ c (Proc.devRef .tc main_v3) : Arr S320000 .i32) = (targets (m ((c : Thread nD τ).loc main_arg1))) := by
  show (StableHlo.after hostOps2_1 (StableHlo.after hostOps2 (W5 m ρ c)) (Proc.devRef .tc main_v3) : Arr S320000 .i32) = _
  dsimp only [hostOps2_1, hostOps2]
  after_results_simp
  exact at5_dst m ρ c
theorem at7_w3 : (W7 m ρ c (Proc.devRef .tc main_v6) : Arr S512x256 .f32) = (m ((c : Thread nD τ).loc main_arg7)) := by
  show (StableHlo.after hostOps2_1 (StableHlo.after hostOps2 (W5 m ρ c)) (Proc.devRef .tc main_v6) : Arr S512x256 .f32) = _
  dsimp only [hostOps2_1, hostOps2]
  after_results_simp
  exact at5_w3 m ρ c
theorem at7_b3 : (W7 m ρ c (Proc.devRef .tc main_arg8) : Arr S256 .f32) = (m ((c : Thread nD τ).loc main_arg8)) := by
  show (StableHlo.after hostOps2_1 (StableHlo.after hostOps2 (W5 m ρ c)) (Proc.devRef .tc main_arg8) : Arr S256 .f32) = _
  dsimp only [hostOps2_1, hostOps2]
  after_results_simp
  exact at5_b3 m ρ c
theorem at7_lab : (W7 m ρ c (Proc.devRef .tc main_arg2) : Arr S2x100000 .i32) = (m ((c : Thread nD τ).loc main_arg2)) := by
  show (StableHlo.after hostOps2_1 (StableHlo.after hostOps2 (W5 m ρ c)) (Proc.devRef .tc main_arg2) : Arr S2x100000 .i32) = _
  dsimp only [hostOps2_1, hostOps2]
  after_results_simp
  exact at5_lab m ρ c

/-! ## After the third call -/

theorem at8_lin : (W8 m ρ c (Proc.devRef .tc main_v39) : Arr S20000x256 .f32) = RowsByCols.prod (M := 20000) (K := 512) (N := 256) (hidden2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7)) := by
  refine (W8_arr m ρ c 2).trans ((Region2.result (V7 m ρ) c).trans ?_)
  show RowsByCols.prod (M := 20000) (K := 512) (N := 256) (W7 m ρ c (Proc.devRef .tc main_v38) : Arr S20000x512 .f32) (W7 m ρ c (Proc.devRef .tc main_v6) : Arr S512x256 .f32) = _
  rw [at7_h, at7_w3]
theorem at8_src : (W8 m ρ c (Proc.devRef .tc main_v1) : Arr S320000 .i32) = (sources (m ((c : Thread nD τ).loc main_arg1))) :=
  (W8_of_ne m ρ c main_v1 (by decide)).trans (at7_src m ρ c)
theorem at8_dst : (W8 m ρ c (Proc.devRef .tc main_v3) : Arr S320000 .i32) = (targets (m ((c : Thread nD τ).loc main_arg1))) :=
  (W8_of_ne m ρ c main_v3 (by decide)).trans (at7_dst m ρ c)
theorem at8_b3 : (W8 m ρ c (Proc.devRef .tc main_arg8) : Arr S256 .f32) = (m ((c : Thread nD τ).loc main_arg8)) :=
  (W8_of_ne m ρ c main_arg8 (by decide)).trans (at7_b3 m ρ c)
theorem at8_lab : (W8 m ρ c (Proc.devRef .tc main_arg2) : Arr S2x100000 .i32) = (m ((c : Thread nD τ).loc main_arg2)) :=
  (W8_of_ne m ρ c main_arg2 (by decide)).trans (at7_lab m ρ c)

/-! ## At the return: the scores -/

/-- The result buffer ends holding the network's scores of the argument arrays. -/
theorem result_value : (W9 m ρ c (Proc.devRef .tc main_v73) : Arr S100000 .f32)
    = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show (StableHlo.after hostOps3 (W8 m ρ c) (Proc.devRef .tc main_v73) : Arr S100000 .f32) = _
  dsimp only [hostOps3]
  after_results_simp
  rw [at8_lin, at8_src, at8_dst, at8_b3, at8_lab]
  rfl

end Cert.Bridge.Stages

end
-- ==== Proof.RefSide.lean ====
/-
  The reference computes the network's scores.

  The reference program is host operations only; its run ends with the result at the operations' composed term of the
  argument arrays. That term is the network of Layers, operation for operation: the same gathers, scatter-adds, bias
  rows and relus in the same order, and where the layers multiply by a weight matrix the reference has the host's
  `dot_general` with dimension numbers `[1] × [0]`, which is the rows-by-columns product.
-/
import proofs.«161957_j88278757802628_2_alg».proof.Proof.Gen.ReferenceIdeal.Run
import proofs.«161957_j88278757802628_2_alg».proof.Proof.Layers

set_option maxRecDepth 16384

noncomputable section

namespace Cert.Bridge.RefSide

open Idealize.ShloMosaic Idealize.ShloMosaic.TcCoe Idealize.SL.Sem Cert.Bridge.Layers

/-- The reference's `512 × 512` products are the rows-by-columns product. -/
theorem dot512 (l : FVec Ideal Cert.ReferenceIdeal.S20000x512 .f32) (r : FVec Ideal Cert.ReferenceIdeal.S512x512 .f32) :
    Host.dotGeneral Cert.ReferenceIdeal.dot_S20000x512_S512x512_S20000x512_1_0_0_1_n_n none l r
      = RowsByCols.prod (M := 20000) (K := 512) (N := 512) l r :=
  RowsByCols.host_eq _ rfl rfl rfl rfl rfl rfl none l r

/-- The reference's `512 × 256` product is the rows-by-columns product. -/
theorem dot256 (l : FVec Ideal Cert.ReferenceIdeal.S20000x512 .f32) (r : FVec Ideal Cert.ReferenceIdeal.S512x256 .f32) :
    Host.dotGeneral Cert.ReferenceIdeal.dot_S20000x512_S512x256_S20000x256_1_0_0_1_n_n none l r
      = RowsByCols.prod (M := 20000) (K := 512) (N := 256) l r :=
  RowsByCols.host_eq _ rfl rfl rfl rfl rfl rfl none l r

variable (m' : (ℓ : Loc Cert.ReferenceIdeal.nD Cert.ReferenceIdeal.τ Cert.ReferenceIdeal.sig) → Buf (Elt Ideal) ℓ)
  (c : Dev Cert.ReferenceIdeal.nD)

/-- The reference's result term is the network's scores of its argument arrays. -/
theorem result_value : (Cert.ReferenceIdeal.Value.res_main_v67 m' c : Arr Cert.KernelIdeal.S100000 .f32)
    = scores (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold Cert.ReferenceIdeal.Value.res_main_v67
  simp only [dot512, dot256]
  rfl

end Cert.Bridge.RefSide

end
-- ==== Proof.lean ====
/-
  A three-layer graph convolution with an inner-product decoder, computed two ways, gives the same scores on the
  extended reals.

  Both programs compute, for node features `x`, an edge list, weights `W1, W2, W3` and bias rows `b1, b2, b3`,
      h1 = relu (A (x · W1) + b1),  h2 = relu (A (h1 · W2) + b2),  z = A (h2 · W3) + b3,
  where `A` adds row `src e` of its argument into row `dst e` for every edge `e`, and then the inner product of rows
  `z[p]` and `z[q]` for every labelled pair `(p, q)`. They differ only in how the three products are made: the kernel
  program runs each as a call over ten row blocks on the matrix unit, with the operands and the output stored in a
  shorter format; the reference calls the host's `dot_general`. On the extended reals a change of format is the
  identity and both products are `Σ_k l (a, k) · r (k, b)`, summed over the same index set, so no law of arithmetic
  beyond that reading is needed, and the inputs' finiteness is not used.

  The kernel's run (KernelRun) ends with the result at what its nine segments leave there; Stages evaluates that to
  the scores of the argument arrays, each call's output by Region0 / Region1 / Region2; RefSide reads the reference's
  generated run as the same function. The three frames are the generated ones (the reference's is its run with the
  result dropped), and nothing was rewritten in idealizing the kernel, so there is nothing to preserve.
-/
import proofs.«161957_j88278757802628_2_alg».proof.Defs
import proofs.«161957_j88278757802628_2_alg».proof.Proof.Gen.Kernel
import proofs.«161957_j88278757802628_2_alg».proof.Proof.Gen.Kernel.Frame
import proofs.«161957_j88278757802628_2_alg».proof.Proof.Gen.KernelIdeal
import proofs.«161957_j88278757802628_2_alg».proof.Proof.Gen.KernelIdeal.Frame
import proofs.«161957_j88278757802628_2_alg».proof.Proof.Gen.ReferenceIdeal
import proofs.«161957_j88278757802628_2_alg».proof.Proof.Gen.ReferenceIdeal.Run
import proofs.«161957_j88278757802628_2_alg».proof.Proof.Gen.Pre_finite_inputs
import proofs.«161957_j88278757802628_2_alg».proof.Proof.KernelRun
import proofs.«161957_j88278757802628_2_alg».proof.Proof.Stages
import proofs.«161957_j88278757802628_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the kernel program read on the extended reals. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the network's scores of those arguments in
    their result buffers. -/
theorem algebraic : Cert.algebraic_KernelIdeal_ReferenceIdeal := by
  intro m ρ m' ρ' _ hagree
  refine ⟨fun c => Cert.KernelIdeal.Gen.W9 m ρ c (Proc.devRef .tc Cert.KernelIdeal.main_v73),
    Cert.Bridge.KernelRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  refine (Cert.Bridge.RefSide.result_value m' c).trans (Eq.trans ?_ (Cert.Bridge.Stages.result_value m ρ c).symm)
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
